-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 72
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x128, .f32⟩
  | .hbm, ⟨39, _⟩ => ⟨S50000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .bf16⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x64, .f32⟩
  | .hbm, ⟨71, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .bf16⟩
  | .local _ .vmem, ⟨23, _⟩ => ⟨S5000x128, .bf16⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .bf16 = 32 ∨ (Rect.block (s := S50000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The network both programs compute, written once as a function of the twelve argument arrays.

  A node's hidden row is updated from its own row and from the mean of the rows of the nodes with an edge into it:
      out = h · Wself + (agg ⊙ inv) · Wneigh + b,     agg[v] = Σ_{e : dst e = v} h[src e],     inv[v] = 1 / max(1, #{e : dst e = v}),
  with max(·, 0) after the first two of three such layers. The sums over edges (a gather of source rows, then a
  scatter-add into destination rows) and the inverse degree are the same host operations in both programs, so they
  are named here and never opened; what differs between the two programs is only how the dense part
  h · Wself + (agg ⊙ inv) · Wneigh + b is carried out, and that is the function `dense128` / `dense64` below.
-/
import proofs.«158000_j24232205484235_2_alg».proof.Proof.Gen.ReferenceIdeal
import Idealize.ShloMosaic.PureOps.Ideal

noncomputable section

namespace Cert.Sage

open Cert.ReferenceIdeal Cert.ReferenceIdeal.Gen Idealize.ShloMosaic Idealize.ShloMosaic.TcCoe Idealize.SL.Sem Idealize.ShloMosaic.StableHlo

variable {F : FTy → Type} [FloatOps F]

/-- A float array of a literal shape. -/
abbrev FArr (F : FTy → Type) [FloatOps F] (S : Shape) : Type := (⟨S, .f32⟩ : BufTy).Contents (Elt F)
/-- A 32-bit integer array of a literal shape. -/
abbrev IArr (F : FTy → Type) [FloatOps F] (S : Shape) : Type := (⟨S, .i32⟩ : BufTy).Contents (Elt F)

/-- One over the larger of one and the number of edges that end at each node. -/
def invDeg (dst : IArr F S800000) : FArr F S50000 :=
  Host.divf (broadcastInDim S50000 ![] bcast_S_S50000 (constant S_ .f32 0x3F800000#32))
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- Each edge's source node as a row index: a negative entry counts from the end. -/
def srcIdx (src : IArr F S800000) : IArr F S800000x1 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- For each node, the sum of the rows of the source nodes of the edges ending at it. -/
def aggregate (h : FArr F S50000x128) (src dst : IArr F S800000) : FArr F S50000x128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (srcIdx src))

/-- A per-node scalar as a one-column matrix. -/
def col (v : FArr F S50000) : FArr F S50000x1 := broadcastInDim S50000x1 ![0] bcast_S50000_S50000x1_0 v
/-- A bias vector as a one-row matrix. -/
def row128 (b : FArr F S128) : FArr F S1x128 := broadcastInDim S1x128 ![1] bcast_S128_S1x128_1 b
def row64 (b : FArr F S64) : FArr F S1x64 := broadcastInDim S1x64 ![1] bcast_S64_S1x64_1 b

/-- The dense part of a layer with 128 outputs: `h · ws + (a ⊙ ic) · wn + br`, the column `ic` and the row `br`
    repeated along the other axis. -/
def dense128 (h a : FArr F S50000x128) (ic : FArr F S50000x1) (ws wn : FArr F S128x128) (br : FArr F S1x128) : FArr F S50000x128 :=
  addf
    (addf (Host.dotGeneral dot_S50000x128_S128x128_S50000x128_1_0_0_1_n_n none h ws)
      (Host.dotGeneral dot_S50000x128_S128x128_S50000x128_1_0_0_1_n_n none
        (mulf a (broadcastInDim S50000x128 ![0, 1] bcast_S50000x1_S50000x128_0_1 ic)) wn))
    (broadcastInDim S50000x128 ![0, 1] bcast_S1x128_S50000x128_0_1 br)

/-- The dense part of the last layer, with 64 outputs. -/
def dense64 (h a : FArr F S50000x128) (ic : FArr F S50000x1) (ws wn : FArr F S128x64) (br : FArr F S1x64) : FArr F S50000x64 :=
  addf
    (addf (Host.dotGeneral dot_S50000x128_S128x64_S50000x64_1_0_0_1_n_n none h ws)
      (Host.dotGeneral dot_S50000x128_S128x64_S50000x64_1_0_0_1_n_n none
        (mulf a (broadcastInDim S50000x128 ![0, 1] bcast_S50000x1_S50000x128_0_1 ic)) wn))
    (broadcastInDim S50000x64 ![0, 1] bcast_S1x64_S50000x64_0_1 br)

/-- The larger of each entry and zero. -/
def relu (x : FArr F S50000x128) : FArr F S50000x128 :=
  maximumf x (broadcastInDim S50000x128 ![] bcast_S_S50000x128 (constant S_ .f32 0x00000000#32))

/-- One hidden layer: the dense part of `h` and of its aggregate, then the larger of that and zero. -/
def hidden (h : FArr F S50000x128) (src dst : IArr F S800000) (ws wn : FArr F S128x128) (b : FArr F S128) : FArr F S50000x128 :=
  relu (dense128 h (aggregate h src dst) (col (invDeg dst)) ws wn (row128 b))

/-- The last layer: no maximum with zero. -/
def last (h : FArr F S50000x128) (src dst : IArr F S800000) (ws wn : FArr F S128x64) (b : FArr F S64) : FArr F S50000x64 :=
  dense64 h (aggregate h src dst) (col (invDeg dst)) ws wn (row64 b)

/-- One entry of a layer's dense part, from the node's own row `hr`, its aggregate's row `ar`, its inverse degree `inv`,
    the two weight columns `ws`, `wn` and the bias entry `b`: two inner products over the 128 input features, and the bias. -/
def entry (hr ar : Fin 128 → EReal) (inv : EReal) (ws wn : Fin 128 → EReal) (b : EReal) : EReal :=
  ((∑ k : Fin 128, hr k * ws k) + (∑ k : Fin 128, (ar k * inv) * wn k)) + b

/-- The three layers. -/
def net (x : FArr F S50000x128) (src dst : IArr F S800000) (ws0 wn0 : FArr F S128x128) (b0 : FArr F S128)
    (ws1 wn1 : FArr F S128x128) (b1 : FArr F S128) (ws2 wn2 : FArr F S128x64) (b2 : FArr F S64) : FArr F S50000x64 :=
  last (hidden (hidden x src dst ws0 wn0 b0) src dst ws1 wn1 b1) src dst ws2 wn2 b2

end Cert.Sage

end
-- ==== Proof.RefNet.lean ====
/-
  The reference program's result term is `net` of its twelve arguments: the term the run states is the three layers
  written out operation by operation, and unfolding the names of `Spec` spells `net` the same way.
-/
import proofs.«158000_j24232205484235_2_alg».proof.Proof.Spec
import proofs.«158000_j24232205484235_2_alg».proof.Proof.Gen.ReferenceIdeal.Run

noncomputable section

namespace Cert.Sage

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- What the reference's run leaves in its result buffer is the network of `Spec` applied to the launch contents of
    the argument buffers. -/
theorem ref_is_net (m : (ℓ : Loc nD τ sig) → Buf (Elt F) ℓ) (c : Dev nD) :
    Cert.ReferenceIdeal.Value.res_main_v66 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v66 net last hidden relu dense64 dense128 aggregate srcIdx col row128 row64 invDeg
  rfl

end Cert.Sage

end
-- ==== Proof.KernelRun.lean ====
/-
  The idealized kernel program's run with its result named. The program is three launches of the layer kernel among
  stretches of host operations; the contents of every buffer at each boundary between them are a fold from the launch
  memory (host operations applied to the contents before them, a launch's arrays at what its write-backs leave), and the
  run ends with every buffer at the last value of that fold. The frame claim reads only the argument buffers out of
  that final state; here the result buffer is read out of it as well.
-/
import proofs.«158000_j24232205484235_2_alg».proof.Proof.FramePatchedKernelIdeal

set_option maxRecDepth 16384

noncomputable section

namespace Cert.KernelIdeal.RunValue

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, with
    the result buffer at the last value of the fold of buffer contents (`W6`) and the argument buffers as launched. -/
theorem run : θ_run defs (onTc (τ := τ) (main (F := F))) ⟨m, fun _ => 0, ρ⟩ (fun r => ∀ c : Dev nD,
      r.2.mem ((c.tc : Thread nD τ).loc main_v46) = W6 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v46 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.Products.lean ====
/-
  A product of an M×128 matrix by a 128×N matrix, read at one entry, is the inner product of a row and a column:
      (L · W)[p, q] = Σ_{k < 128} L[p, k] · W[k, q].
  The reference computes its products with the host's `dot_general` over whole arrays, the kernel with `tpu.matmul` into
  a zero accumulator over blocks of 5000 rows; at the extended reals both are this sum (there is no rounding and no
  order of summation left), each over its own record of dimension numbers. The four records (two per program: 128
  and 64 output columns) all contract the left operand's second axis with the right operand's first.
-/
import proofs.«158000_j24232205484235_2_alg».proof.Proof.Spec
import proofs.«158000_j24232205484235_2_alg».proof.Proof.Gen.KernelIdeal
import Idealize.ShloMosaic.Lib.ValueIdx
import Idealize.ShloMosaic.PureOps.Ideal.Laws

noncomputable section

namespace Cert.Sage

open Idealize.ShloMosaic Idealize.ShloMosaic.ValueIdx

/-- The sum over a record's one contracted axis is the sum over `k < 128` of row entry times column entry, once the
    record's operand indices are known coordinate by coordinate. -/
theorem sum_rows_cols {M N : ℕ} (D : DotDims (⟨2, ![M, 128]⟩ : Shape) (⟨2, ![128, N]⟩ : Shape) (⟨2, ![M, N]⟩ : Shape))
    (hr : D.contr.rank = 1) (hs : D.contr.size ⟨0, by omega⟩ = 128)
    (hl0 : ∀ (j : (⟨2, ![M, N]⟩ : Shape).Idx) (k : D.contr.Idx), (D.lhsIdx j k 0).val = (j 0).val)
    (hl1 : ∀ (j : (⟨2, ![M, N]⟩ : Shape).Idx) (k : D.contr.Idx), (D.lhsIdx j k 1).val = (k ⟨0, by omega⟩).val)
    (hr0 : ∀ (j : (⟨2, ![M, N]⟩ : Shape).Idx) (k : D.contr.Idx), (D.rhsIdx j k 0).val = (k ⟨0, by omega⟩).val)
    (hr1 : ∀ (j : (⟨2, ![M, N]⟩ : Shape).Idx) (k : D.contr.Idx), (D.rhsIdx j k 1).val = (j 1).val)
    (l : (⟨2, ![M, 128]⟩ : Shape).Idx → EReal) (w : (⟨2, ![128, N]⟩ : Shape).Idx → EReal) (p : Fin M) (q : Fin N) :
    ∑ k : D.contr.Idx, l (D.lhsIdx (ix2 p q) k) * w (D.rhsIdx (ix2 p q) k) = ∑ k : Fin 128, l (ix2 p k) * w (ix2 k q) := by
  rw [← Equiv.sum_comp (contrEquiv1 D 128 hr hs).symm]
  refine Finset.sum_congr rfl fun k _ => ?_
  have hk := contrEquiv1_symm_val D 128 hr hs k
  have el : D.lhsIdx (ix2 p q) ((contrEquiv1 D 128 hr hs).symm k) = ix2 p k := funext fun a => Fin.ext (by
    match a with
    | ⟨0, _⟩ => exact hl0 _ _
    | ⟨1, _⟩ => exact (hl1 _ _).trans hk)
  have er : D.rhsIdx (ix2 p q) ((contrEquiv1 D 128 hr hs).symm k) = ix2 k q := funext fun a => Fin.ext (by
    match a with
    | ⟨0, _⟩ => exact (hr0 _ _).trans hk
    | ⟨1, _⟩ => exact hr1 _ _)
  rw [el, er]

/-! ## The reference's two products -/

section Reference
open Cert.ReferenceIdeal Cert.ReferenceIdeal.Gen

/-- The host's product with 128 output columns at entry `(r, q)`. -/
theorem host128_apply (l : FVec Ideal S50000x128 .f32) (w : FVec Ideal S128x128 .f32) (r : Fin 50000) (q : Fin 128) :
    Host.dotGeneral (F := Ideal) (φ₁ := .f32) (φ₂ := .f32) dot_S50000x128_S128x128_S50000x128_1_0_0_1_n_n none l w (ix2 r q)
      = ∑ k : Fin 128, l (ix2 r k) * w (ix2 k q) := by
  simp only [Host.dotGeneral]
  rw [Ideal.dotGeneral_apply]
  exact sum_rows_cols dot_S50000x128_S128x128_S50000x128_1_0_0_1_n_n rfl rfl
    (fun j k => by
      unfold DotDims.lhsIdx
      rw [dif_neg (show ¬(0 : Fin S50000x128.rank) ∈ dot_S50000x128_S128x128_S50000x128_1_0_0_1_n_n.lhsBatch by decide),
        dif_pos (show (0 : Fin S50000x128.rank) ∈ dot_S50000x128_S128x128_S50000x128_1_0_0_1_n_n.lhsNonContracting by decide)]
      rfl)
    (fun j k => dot_S50000x128_S128x128_S50000x128_1_0_0_1_n_n.lhsIdx_val_of_single rfl j k)
    (fun j k => dot_S50000x128_S128x128_S50000x128_1_0_0_1_n_n.rhsIdx_val_of_single rfl j k)
    (fun j k => by
      unfold DotDims.rhsIdx
      rw [dif_neg (show ¬(1 : Fin S128x128.rank) ∈ dot_S50000x128_S128x128_S50000x128_1_0_0_1_n_n.rhsBatch by decide),
        dif_pos (show (1 : Fin S128x128.rank) ∈ dot_S50000x128_S128x128_S50000x128_1_0_0_1_n_n.rhsNonContracting by decide)]
      rfl)
    l w r q

/-- The host's product with 64 output columns at entry `(r, q)`. -/
theorem host64_apply (l : FVec Ideal S50000x128 .f32) (w : FVec Ideal S128x64 .f32) (r : Fin 50000) (q : Fin 64) :
    Host.dotGeneral (F := Ideal) (φ₁ := .f32) (φ₂ := .f32) dot_S50000x128_S128x64_S50000x64_1_0_0_1_n_n none l w (ix2 r q)
      = ∑ k : Fin 128, l (ix2 r k) * w (ix2 k q) := by
  simp only [Host.dotGeneral]
  rw [Ideal.dotGeneral_apply]
  exact sum_rows_cols dot_S50000x128_S128x64_S50000x64_1_0_0_1_n_n rfl rfl
    (fun j k => by
      unfold DotDims.lhsIdx
      rw [dif_neg (show ¬(0 : Fin S50000x128.rank) ∈ dot_S50000x128_S128x64_S50000x64_1_0_0_1_n_n.lhsBatch by decide),
        dif_pos (show (0 : Fin S50000x128.rank) ∈ dot_S50000x128_S128x64_S50000x64_1_0_0_1_n_n.lhsNonContracting by decide)]
      rfl)
    (fun j k => dot_S50000x128_S128x64_S50000x64_1_0_0_1_n_n.lhsIdx_val_of_single rfl j k)
    (fun j k => dot_S50000x128_S128x64_S50000x64_1_0_0_1_n_n.rhsIdx_val_of_single rfl j k)
    (fun j k => by
      unfold DotDims.rhsIdx
      rw [dif_neg (show ¬(1 : Fin S128x64.rank) ∈ dot_S50000x128_S128x64_S50000x64_1_0_0_1_n_n.rhsBatch by decide),
        dif_pos (show (1 : Fin S128x64.rank) ∈ dot_S50000x128_S128x64_S50000x64_1_0_0_1_n_n.rhsNonContracting by decide)]
      rfl)
    l w r q

end Reference

/-! ## The kernel's two products, over a block of 5000 rows -/

section Kernel
open Cert.KernelIdeal Cert.KernelIdeal.Gen

/-- The kernel's product with 128 output columns, into a zero accumulator, at entry `(p, q)` of the block. -/
theorem block128_apply {φ₁ φ₂ : FTy} (x : FVec Ideal S5000x128 φ₁) (w : FVec Ideal S128x128 φ₂) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply]
  exact sum_rows_cols dot_S5000x128_S128x128_S5000x128_1_0_0_1_n_n rfl rfl
    (fun j k => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j k => dot_S5000x128_S128x128_S5000x128_1_0_0_1_n_n.lhsIdx_val_of_single rfl j k)
    (fun j k => dot_S5000x128_S128x128_S5000x128_1_0_0_1_n_n.rhsIdx_val_of_single rfl j k)
    (fun j k => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    x w p q

/-- The kernel's product with 64 output columns, into a zero accumulator, at entry `(p, q)` of the block. -/
theorem block64_apply {φ₁ φ₂ : FTy} (x : FVec Ideal S5000x128 φ₁) (w : FVec Ideal S128x64 φ₂) (p : Fin 5000) (q : Fin 64) :
    matmul (F := Ideal) dot_S5000x128_S128x64_S5000x64_1_0_0_1_n_n none x w (constant S5000x64 .f32 0x00000000#32) (ix2 p q)
      = ∑ k : Fin 128, x (ix2 p k) * w (ix2 k q) := by
  simp only [matmul]
  rw [Ideal.matmul_constant_zero_apply]
  exact sum_rows_cols dot_S5000x128_S128x64_S5000x64_1_0_0_1_n_n rfl rfl
    (fun j k => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun j k => dot_S5000x128_S128x64_S5000x64_1_0_0_1_n_n.lhsIdx_val_of_single rfl j k)
    (fun j k => dot_S5000x128_S128x64_S5000x64_1_0_0_1_n_n.rhsIdx_val_of_single rfl j k)
    (fun j k => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    x w p q

end Kernel

end Cert.Sage

end
-- ==== Proof.LayerAt.lean ====
/-
  The dense part of a layer, and the maximum with zero, read at one entry `(r, q)` of the whole array:
      dense[r, q] = Σ_k h[r, k] · ws[k, q] + Σ_k (a[r, k] · ic[r, 0]) · wn[k, q] + br[0, q],
  the column `ic` repeated along the feature axis and the row `br` along the node axis.
-/
import proofs.«158000_j24232205484235_2_alg».proof.Proof.Products
import Idealize.ShloMosaic.Lib.Pipeline.Value

noncomputable section

namespace Cert.Sage

open Cert.ReferenceIdeal Cert.ReferenceIdeal.Gen Idealize.ShloMosaic Idealize.ShloMosaic.ValueIdx

/-- A one-column matrix repeated along the feature axis reads its column. -/
theorem spread_col_apply (ic : FArr Ideal S50000x1) (r : Fin 50000) (k : Fin 128) :
    broadcastInDim S50000x128 ![0, 1] bcast_S50000x1_S50000x128_0_1 ic (ix2 r k) = ic (ix2 r (0 : Fin 1)) :=
  broadcastInDim_apply _ bcast_S50000x1_S50000x128_0_1 ic (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- A one-row matrix of 128 entries repeated along the node axis reads its row. -/
theorem spread_row128_apply (br : FArr Ideal S1x128) (r : Fin 50000) (q : Fin 128) :
    broadcastInDim S50000x128 ![0, 1] bcast_S1x128_S50000x128_0_1 br (ix2 r q) = br (ix2 (0 : Fin 1) q) :=
  broadcastInDim_apply _ bcast_S1x128_S50000x128_0_1 br (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A one-row matrix of 64 entries repeated along the node axis reads its row. -/
theorem spread_row64_apply (br : FArr Ideal S1x64) (r : Fin 50000) (q : Fin 64) :
    broadcastInDim S50000x64 ![0, 1] bcast_S1x64_S50000x64_0_1 br (ix2 r q) = br (ix2 (0 : Fin 1) q) :=
  broadcastInDim_apply _ bcast_S1x64_S50000x64_0_1 br (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])

/-- The dense part with 128 outputs at entry `(r, q)`. -/
theorem dense128_apply (h a : FArr Ideal S50000x128) (ic : FArr Ideal S50000x1) (ws wn : FArr Ideal S128x128)
    (br : FArr Ideal S1x128) (r : Fin 50000) (q : Fin 128) :
    dense128 h a ic ws wn br (ix2 r q)
      = entry (fun k => h (ix2 r k)) (fun k => a (ix2 r k)) (ic (ix2 r (0 : Fin 1))) (fun k => ws (ix2 k q)) (fun k => wn (ix2 k q))
          (br (ix2 (0 : Fin 1) q)) := by
  unfold dense128 entry
  show (_ + _) + _ = _
  rw [host128_apply, host128_apply, spread_row128_apply]
  refine congrArg (· + br (ix2 (0 : Fin 1) q)) (congrArg (_ + ·) (Finset.sum_congr rfl fun k _ => ?_))
  show (a (ix2 r k) * broadcastInDim S50000x128 ![0, 1] bcast_S50000x1_S50000x128_0_1 ic (ix2 r k)) * wn (ix2 k q) = _
  rw [spread_col_apply]

/-- The dense part with 64 outputs at entry `(r, q)`. -/
theorem dense64_apply (h a : FArr Ideal S50000x128) (ic : FArr Ideal S50000x1) (ws wn : FArr Ideal S128x64)
    (br : FArr Ideal S1x64) (r : Fin 50000) (q : Fin 64) :
    dense64 h a ic ws wn br (ix2 r q)
      = entry (fun k => h (ix2 r k)) (fun k => a (ix2 r k)) (ic (ix2 r (0 : Fin 1))) (fun k => ws (ix2 k q)) (fun k => wn (ix2 k q))
          (br (ix2 (0 : Fin 1) q)) := by
  unfold dense64 entry
  show (_ + _) + _ = _
  rw [host64_apply, host64_apply, spread_row64_apply]
  refine congrArg (· + br (ix2 (0 : Fin 1) q)) (congrArg (_ + ·) (Finset.sum_congr rfl fun k _ => ?_))
  show (a (ix2 r k) * broadcastInDim S50000x128 ![0, 1] bcast_S50000x1_S50000x128_0_1 ic (ix2 r k)) * wn (ix2 k q) = _
  rw [spread_col_apply]

/-- The maximum with zero at an entry. -/
theorem relu_apply (x : FArr Ideal S50000x128) (i : S50000x128.Idx) : relu x i = max (x i) 0 := by
  unfold relu
  show max (x i) (broadcastInDim S50000x128 ![] bcast_S_S50000x128 (constant (F := Ideal) S_ .f32 0x00000000#32) i) = _
  rw [broadcastInDim_apply _ bcast_S_S50000x128 _ i ix0 (fun a => a.elim0)]
  show max (x i) (Ideal.ofBits .f32 0x00000000#32) = _
  rw [Ideal.ofBits_zero_f32]

end Cert.Sage

end
-- ==== Proof.Payload.lean ====
/-
  What the kernel's body stores, read at one entry `(p, q)` of its block of 5000 rows. The body rounds its operands to
  bf16 on the way into the two products and (in the first two layers) its result on the way out; on the extended reals
  a change of format is the identity, so the stored value at `(p, q)` is
      max( Σ_k x0[p, k] · x3[k, q] + Σ_k (x1[p, k] · x2[p, 0]) · x4[k, q] + x5[0, q] , 0 )
  in the first two layers and the same without the maximum in the last: `entry` of the block's rows and the weights'
  columns, exactly the form the whole-array dense part has at the corresponding row.
-/
import proofs.«158000_j24232205484235_2_alg».proof.Proof.Products
import proofs.«158000_j24232205484235_2_alg».proof.Proof.Gen.KernelIdeal.Skeleton
import Idealize.ShloMosaic.Lib.Pipeline.Value
import Idealize.ShloMosaic.Lib.ValueLayout

noncomputable section

namespace Cert.Sage

open Cert.KernelIdeal Cert.KernelIdeal.Gen Idealize.ShloMosaic Idealize.ShloMosaic.ValueIdx

/-- A block's one-column matrix repeated along the feature axis reads its column. -/
theorem block_col_apply (v : (⟨2, ![5000, 1]⟩ : Shape).Idx → EReal) (h : (⟨2, ![5000, 1]⟩ : Shape).Broadcasts ⟨2, ![5000, 128]⟩)
    (p : Fin 5000) (k : Fin 128) : broadcastTo ⟨2, ![5000, 128]⟩ v h (ix2 p k) = v (ix2 p (0 : Fin 1)) := by
  refine broadcastTo_apply v h (ix2 p k) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else k.val; rw [if_pos rfl]

/-- The first layer's stored value at `(p, q)`. -/
theorem k0_pay1_apply (v0 v2 : Vec Ideal S5000x128 .f32) (v4 : Vec Ideal S5000x1 .f32) (v9 v11 : Vec Ideal S128x128 .f32)
    (v13 : Vec Ideal S1x128 .f32) (p : Fin 5000) (q : Fin 128) :
    k0_pay1 (F := Ideal) v0 v2 v4 v9 v11 v13 (ix2 p q)
      = max (entry (fun k => v0 (ix2 p k)) (fun k => v2 (ix2 p k)) (v4 (ix2 p (0 : Fin 1))) (fun k => v9 (ix2 k q))
          (fun k => v11 (ix2 k q)) (v13 (ix2 (0 : Fin 1) q))) 0 := by
  unfold k0_pay1 entry
  simp only [shapeCast_self]
  show max ((_ + _) + _) (Ideal.ofBits .f32 0x00000000#32) = _
  rw [block128_apply, block128_apply, broadcastTo_1b_ab_apply, Ideal.ofBits_zero_f32]
  refine congrArg (max · 0) (congrArg (· + v13 (ix2 (0 : Fin 1) q)) (congrArg (_ + ·) (Finset.sum_congr rfl fun k _ => ?_)))
  show (v2 (ix2 p k) * broadcastTo S5000x128 v4 broadcasts_S5000x1_S5000x128 (ix2 p k)) * v11 (ix2 k q) = _
  rw [block_col_apply]

/-- The second layer's stored value at `(p, q)`: the same, its first operand already in bf16. -/
theorem k1_pay1_apply (v0 : Vec Ideal S5000x128 .bf16) (v2 : Vec Ideal S5000x128 .f32) (v4 : Vec Ideal S5000x1 .f32)
    (v9 v11 : Vec Ideal S128x128 .f32) (v13 : Vec Ideal S1x128 .f32) (p : Fin 5000) (q : Fin 128) :
    k1_pay1 (F := Ideal) v0 v2 v4 v9 v11 v13 (ix2 p q)
      = max (entry (fun k => v0 (ix2 p k)) (fun k => v2 (ix2 p k)) (v4 (ix2 p (0 : Fin 1))) (fun k => v9 (ix2 k q))
          (fun k => v11 (ix2 k q)) (v13 (ix2 (0 : Fin 1) q))) 0 := by
  unfold k1_pay1 entry
  simp only [shapeCast_self]
  show max ((_ + _) + _) (Ideal.ofBits .f32 0x00000000#32) = _
  rw [block128_apply, block128_apply, broadcastTo_1b_ab_apply, Ideal.ofBits_zero_f32]
  refine congrArg (max · 0) (congrArg (· + v13 (ix2 (0 : Fin 1) q)) (congrArg (_ + ·) (Finset.sum_congr rfl fun k _ => ?_)))
  show (v2 (ix2 p k) * broadcastTo S5000x128 v4 broadcasts_S5000x1_S5000x128 (ix2 p k)) * v11 (ix2 k q) = _
  rw [block_col_apply]

/-- The last layer's stored value at `(p, q)`: 64 columns, no maximum. -/
theorem k2_pay1_apply (v0 : Vec Ideal S5000x128 .bf16) (v2 : Vec Ideal S5000x128 .f32) (v4 : Vec Ideal S5000x1 .f32)
    (v9 v11 : Vec Ideal S128x64 .f32) (v13 : Vec Ideal S1x64 .f32) (p : Fin 5000) (q : Fin 64) :
    k2_pay1 (F := Ideal) v0 v2 v4 v9 v11 v13 (ix2 p q)
      = entry (fun k => v0 (ix2 p k)) (fun k => v2 (ix2 p k)) (v4 (ix2 p (0 : Fin 1))) (fun k => v9 (ix2 k q))
          (fun k => v11 (ix2 k q)) (v13 (ix2 (0 : Fin 1) q)) := by
  unfold k2_pay1 entry
  simp only [shapeCast_self]
  show (_ + _) + _ = _
  rw [block64_apply, block64_apply, broadcastTo_1b_ab_apply]
  refine congrArg (· + v13 (ix2 (0 : Fin 1) q)) (congrArg (_ + ·) (Finset.sum_congr rfl fun k _ => ?_))
  show (v2 (ix2 p k) * broadcastTo S5000x128 v4 broadcasts_S5000x1_S5000x128 (ix2 p k)) * v11 (ix2 k q) = _
  rw [block_col_apply]

end Cert.Sage

end
-- ==== Proof.Point.lean ====
/-
  One grid point against the whole array. If the rows the body loads are the corresponding rows of the whole arrays
  (row `p` of the block is row `r` of the array; the weights and the bias are loaded whole), then what the body stores
  at `(p, q)` is what the layer, computed over the whole arrays, has at `(r, q)`: both are `entry` of the same row and
  column data (and the larger of that and zero in the first two layers).
-/
import proofs.«158000_j24232205484235_2_alg».proof.Proof.LayerAt
import proofs.«158000_j24232205484235_2_alg».proof.Proof.Payload

noncomputable section

namespace Cert.Sage

open Idealize.ShloMosaic Idealize.ShloMosaic.ValueIdx

/-- The first layer at one entry. -/
theorem point0 (x0 x1 : Vec Ideal Cert.KernelIdeal.S5000x128 .f32) (x2 : Vec Ideal Cert.KernelIdeal.S5000x1 .f32)
    (x3 x4 : Vec Ideal Cert.KernelIdeal.S128x128 .f32) (x5 : Vec Ideal Cert.KernelIdeal.S1x128 .f32)
    (h a : FArr Ideal Cert.ReferenceIdeal.S50000x128) (ic : FArr Ideal Cert.ReferenceIdeal.S50000x1)
    (ws wn : FArr Ideal Cert.ReferenceIdeal.S128x128) (br : FArr Ideal Cert.ReferenceIdeal.S1x128)
    (p : Fin 5000) (q : Fin 128) (r : Fin 50000)
    (e0 : ∀ k : Fin 128, x0 (ix2 p k) = h (ix2 r k)) (e1 : ∀ k : Fin 128, x1 (ix2 p k) = a (ix2 r k))
    (e2 : x2 (ix2 p (0 : Fin 1)) = ic (ix2 r (0 : Fin 1)))
    (e3 : ∀ k : Fin 128, x3 (ix2 k q) = ws (ix2 k q)) (e4 : ∀ k : Fin 128, x4 (ix2 k q) = wn (ix2 k q))
    (e5 : x5 (ix2 (0 : Fin 1) q) = br (ix2 (0 : Fin 1) q)) :
    Cert.KernelIdeal.Gen.k0_pay1 (F := Ideal) x0 x1 x2 x3 x4 x5 (ix2 p q) = relu (dense128 h a ic ws wn br) (ix2 r q) := by
  rw [k0_pay1_apply, relu_apply, dense128_apply]
  simp only [e0, e1, e2, e3, e4, e5]

/-- The second layer at one entry (its first operand a bf16 array, the same numbers on the extended reals). -/
theorem point1 (x0 : Vec Ideal Cert.KernelIdeal.S5000x128 .bf16) (x1 : Vec Ideal Cert.KernelIdeal.S5000x128 .f32)
    (x2 : Vec Ideal Cert.KernelIdeal.S5000x1 .f32)
    (x3 x4 : Vec Ideal Cert.KernelIdeal.S128x128 .f32) (x5 : Vec Ideal Cert.KernelIdeal.S1x128 .f32)
    (h a : FArr Ideal Cert.ReferenceIdeal.S50000x128) (ic : FArr Ideal Cert.ReferenceIdeal.S50000x1)
    (ws wn : FArr Ideal Cert.ReferenceIdeal.S128x128) (br : FArr Ideal Cert.ReferenceIdeal.S1x128)
    (p : Fin 5000) (q : Fin 128) (r : Fin 50000)
    (e0 : ∀ k : Fin 128, x0 (ix2 p k) = h (ix2 r k)) (e1 : ∀ k : Fin 128, x1 (ix2 p k) = a (ix2 r k))
    (e2 : x2 (ix2 p (0 : Fin 1)) = ic (ix2 r (0 : Fin 1)))
    (e3 : ∀ k : Fin 128, x3 (ix2 k q) = ws (ix2 k q)) (e4 : ∀ k : Fin 128, x4 (ix2 k q) = wn (ix2 k q))
    (e5 : x5 (ix2 (0 : Fin 1) q) = br (ix2 (0 : Fin 1) q)) :
    Cert.KernelIdeal.Gen.k1_pay1 (F := Ideal) x0 x1 x2 x3 x4 x5 (ix2 p q) = relu (dense128 h a ic ws wn br) (ix2 r q) := by
  rw [k1_pay1_apply, relu_apply, dense128_apply]
  simp only [e0, e1, e2, e3, e4, e5]

/-- The last layer at one entry. -/
theorem point2 (x0 : Vec Ideal Cert.KernelIdeal.S5000x128 .bf16) (x1 : Vec Ideal Cert.KernelIdeal.S5000x128 .f32)
    (x2 : Vec Ideal Cert.KernelIdeal.S5000x1 .f32)
    (x3 x4 : Vec Ideal Cert.KernelIdeal.S128x64 .f32) (x5 : Vec Ideal Cert.KernelIdeal.S1x64 .f32)
    (h a : FArr Ideal Cert.ReferenceIdeal.S50000x128) (ic : FArr Ideal Cert.ReferenceIdeal.S50000x1)
    (ws wn : FArr Ideal Cert.ReferenceIdeal.S128x64) (br : FArr Ideal Cert.ReferenceIdeal.S1x64)
    (p : Fin 5000) (q : Fin 64) (r : Fin 50000)
    (e0 : ∀ k : Fin 128, x0 (ix2 p k) = h (ix2 r k)) (e1 : ∀ k : Fin 128, x1 (ix2 p k) = a (ix2 r k))
    (e2 : x2 (ix2 p (0 : Fin 1)) = ic (ix2 r (0 : Fin 1)))
    (e3 : ∀ k : Fin 128, x3 (ix2 k q) = ws (ix2 k q)) (e4 : ∀ k : Fin 128, x4 (ix2 k q) = wn (ix2 k q))
    (e5 : x5 (ix2 (0 : Fin 1) q) = br (ix2 (0 : Fin 1) q)) :
    Cert.KernelIdeal.Gen.k2_pay1 (F := Ideal) x0 x1 x2 x3 x4 x5 (ix2 p q) = dense64 h a ic ws wn br (ix2 r q) := by
  rw [k2_pay1_apply, dense64_apply]
  simp only [e0, e1, e2, e3, e4, e5]

end Cert.Sage

end
-- ==== Proof.Final0.lean ====
/-
  The first launch of the layer kernel leaves, in its output array, the first hidden layer of the arrays it finds.

  The launch walks ten grid points; point `t` stages rows `5000·t … 5000·t + 4999` of the node arrays (the node's own
  rows, their aggregate, the inverse-degree column) together with the whole weight matrices and the bias row, runs the
  body on them, and writes the body's result back to the same rows of the output array. Every row of the output lies
  in exactly the block of point `r / 5000`, so the output array ends as ONE function of the arrays the launch found:
  the layer of `Spec` applied to them. Nothing here depends on what those arrays are — they are whatever the program's
  earlier operations left (`V`).
-/
import proofs.«158000_j24232205484235_2_alg».proof.Proof.FramePatchedKernelIdeal
import proofs.«158000_j24232205484235_2_alg».proof.Proof.Point
import Idealize.ShloMosaic.Lib.Pipeline.Value

set_option maxRecDepth 16384

noncomputable section

namespace Cert.KernelIdeal.Final0

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the node windows and the output sit at block `(t, 0)`, the weights and the
    bias at block `(0, 0)`. -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem points : cfg0.N = 10 := N_0

/-- Row `p` of point `t`'s block is row `5000·t + p` of the array. -/
def row (t : Fin cfg0.N) (p : Fin 5000) : Fin 50000 :=
  ⟨t.val * 5000 + p.val, by have h : t.val < 10 := lt_of_lt_of_eq t.isLt points; have := p.isLt; omega⟩

/-- What the launch leaves in its output array, as a function of the arrays it finds. -/
def G (c : Dev nD) : FArr Ideal Cert.ReferenceIdeal.S50000x128 :=
  relu (dense128 (V c main_arg0) (V c main_v18) (V c main_v8) (V c main_arg3) (V c main_arg4) (V c main_v19))

/-! ## The blocks the body loads, read where they sit in their arrays -/

theorem read0 (c : Dev nD) (t : Fin cfg0.N) (p : Fin 5000) (k : Fin 128) :
    iblk0 V c 0 t (ix2 p k) = V c main_arg0 (ix2 (row t p) k) := by
  show V c main_arg0 (((cfg0.win 0).blk t).view.emb (ix2 p k)) = _
  refine congrArg (V c main_arg0) (funext fun a => Fin.ext ?_)
  obtain ⟨e0, e1, -⟩ := index_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem read1 (c : Dev nD) (t : Fin cfg0.N) (p : Fin 5000) (k : Fin 128) :
    iblk0 V c 1 t (ix2 p k) = V c main_v18 (ix2 (row t p) k) := by
  show V c main_v18 (((cfg0.win 1).blk t).view.emb (ix2 p k)) = _
  refine congrArg (V c main_v18) (funext fun a => Fin.ext ?_)
  obtain ⟨-, -, e0, e1, -⟩ := index_facts t
  match a with
  | ⟨0, _⟩ => show win0_1.index t (0 : Fin 2) * 5000 + 1 * p.val = t.val * 5000 + p.val; omega
  | ⟨1, _⟩ => show win0_1.index t (1 : Fin 2) * 128 + 1 * k.val = k.val; omega

theorem read2 (c : Dev nD) (t : Fin cfg0.N) (p : Fin 5000) :
    iblk0 V c 2 t (ix2 p (0 : Fin 1)) = V c main_v8 (ix2 (row t p) (0 : Fin 1)) := by
  show V c main_v8 (((cfg0.win 2).blk t).view.emb (ix2 p (0 : Fin 1))) = _
  refine congrArg (V c main_v8) (funext fun a => Fin.ext ?_)
  obtain ⟨-, -, -, -, e0, e1, -⟩ := index_facts t
  match a with
  | ⟨0, _⟩ => show win0_2.index t (0 : Fin 2) * 5000 + 1 * p.val = t.val * 5000 + p.val; omega
  | ⟨1, _⟩ => show win0_2.index t (1 : Fin 2) * 1 + 1 * 0 = 0; omega

theorem read3 (c : Dev nD) (t : Fin cfg0.N) (k : Fin 128) (q : Fin 128) :
    iblk0 V c 3 t (ix2 k q) = V c main_arg3 (ix2 k q) := by
  show V c main_arg3 (((cfg0.win 3).blk t).view.emb (ix2 k q)) = _
  refine congrArg (V c main_arg3) (funext fun a => Fin.ext ?_)
  obtain ⟨-, -, -, -, -, -, e0, e1, -⟩ := index_facts t
  match a with
  | ⟨0, _⟩ => show win0_3.index t (0 : Fin 2) * 128 + 1 * k.val = k.val; omega
  | ⟨1, _⟩ => show win0_3.index t (1 : Fin 2) * 128 + 1 * q.val = q.val; omega

theorem read4 (c : Dev nD) (t : Fin cfg0.N) (k : Fin 128) (q : Fin 128) :
    iblk0 V c 4 t (ix2 k q) = V c main_arg4 (ix2 k q) := by
  show V c main_arg4 (((cfg0.win 4).blk t).view.emb (ix2 k q)) = _
  refine congrArg (V c main_arg4) (funext fun a => Fin.ext ?_)
  obtain ⟨-, -, -, -, -, -, -, -, e0, e1, -⟩ := index_facts t
  match a with
  | ⟨0, _⟩ => show win0_4.index t (0 : Fin 2) * 128 + 1 * k.val = k.val; omega
  | ⟨1, _⟩ => show win0_4.index t (1 : Fin 2) * 128 + 1 * q.val = q.val; omega

theorem read5 (c : Dev nD) (t : Fin cfg0.N) (q : Fin 128) :
    iblk0 V c 5 t (ix2 (0 : Fin 1) q) = V c main_v19 (ix2 (0 : Fin 1) q) := by
  show V c main_v19 (((cfg0.win 5).blk t).view.emb (ix2 (0 : Fin 1) q)) = _
  refine congrArg (V c main_v19) (funext fun a => Fin.ext ?_)
  obtain ⟨-, -, -, -, -, -, -, -, -, -, e0, e1, -⟩ := index_facts t
  match a with
  | ⟨0, _⟩ => show win0_5.index t (0 : Fin 2) * 1 + 1 * 0 = 0; omega
  | ⟨1, _⟩ => show win0_5.index t (1 : Fin 2) * 128 + 1 * q.val = q.val; omega

/-! ## What one point writes back, and the whole array -/

/-- Point `t` writes back block `t` of `G`. -/
theorem flushed (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero zeros]
  simp only [View.ld_unit_zero (S := S5000x128) zeros, View.ld_unit_zero (S := S5000x1) zeros,
    View.ld_unit_zero (S := S128x128) zeros, View.ld_unit_zero (S := S1x128) zeros]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
      = G V c (((cfg0.win 6).blk t).view.emb (ix2 p q))
  have hemb : ((cfg0.win 6).blk t).view.emb (ix2 p q) = ix2 (row t p) q := funext fun a => Fin.ext (by
    obtain ⟨-, -, -, -, -, -, -, -, -, -, -, -, e0, e1⟩ := index_facts t
    match a with
    | ⟨0, _⟩ => show win0_6.index t (0 : Fin 2) * 5000 + 1 * p.val = t.val * 5000 + p.val; omega
    | ⟨1, _⟩ => show win0_6.index t (1 : Fin 2) * 128 + 1 * q.val = q.val; omega)
  rw [hemb]
  unfold G
  exact point0 (iblk0 V c 0 t) (iblk0 V c 1 t) (iblk0 V c 2 t) (iblk0 V c 3 t) (iblk0 V c 4 t) (iblk0 V c 5 t)
    (V c main_arg0) (V c main_v18) (V c main_v8) (V c main_arg3) (V c main_arg4) (V c main_v19) p q (row t p)
    (fun k => read0 V c t p k) (fun k => read1 V c t p k) (read2 V c t p) (fun k => read3 V c t k q) (fun k => read4 V c t k q) (read5 V c t q)

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every row of the output is in the block of the point `r / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hlt : (i 0).val / 5000 < cfg0.N := by rw [points]; omega
  refine ⟨⟨(i 0).val / 5000, hlt⟩, flush0_6 _, ?_⟩
  rw [mem_blk]
  obtain ⟨-, -, -, -, -, -, -, -, -, -, -, -, e0, e1⟩ := index_facts ⟨(i 0).val / 5000, hlt⟩
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val ∧ (i 1).val < win0_6.index ⟨(i 0).val / 5000, hlt⟩ (1 : Fin 2) * 128 + 128
    rw [e1]; omega

/-- THE OUTPUT ARRAY after the launch is the layer of the arrays the launch found. -/
theorem final (c : Dev nD) : (dat0 (F := Ideal) V c).arrAt 6 cfg0.N = G V c :=
  (dat0 (F := Ideal) V c).arrAt_eq_of_cover 6 (G V c) (fun t _ => flushed V c t) (cover)

end Cert.KernelIdeal.Final0

end
-- ==== Proof.Final1.lean ====
/-
  The second launch of the layer kernel leaves, in its output array, a hidden layer of the arrays it finds.

  The launch walks ten grid points; point `t` stages rows `5000·t … 5000·t + 4999` of the node arrays (the node's own
  rows, their aggregate, the inverse-degree column) together with the whole weight matrices and the bias row, runs the
  body on them, and writes the body's result back to the same rows of the output array. Every row of the output lies
  in exactly the block of point `r / 5000`, so the output array ends as ONE function of the arrays the launch found:
  the layer of `Spec` applied to them. Nothing here depends on what those arrays are — they are whatever the program's
  earlier operations left (`V`).
-/
import proofs.«158000_j24232205484235_2_alg».proof.Proof.FramePatchedKernelIdeal
import proofs.«158000_j24232205484235_2_alg».proof.Proof.Point
import Idealize.ShloMosaic.Lib.Pipeline.Value

set_option maxRecDepth 16384

noncomputable section

namespace Cert.KernelIdeal.Final1

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the node windows and the output sit at block `(t, 0)`, the weights and the
    bias at block `(0, 0)`. -/
theorem index_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem points : cfg1.N = 10 := N_1

/-- Row `p` of point `t`'s block is row `5000·t + p` of the array. -/
def row (t : Fin cfg1.N) (p : Fin 5000) : Fin 50000 :=
  ⟨t.val * 5000 + p.val, by have h : t.val < 10 := lt_of_lt_of_eq t.isLt points; have := p.isLt; omega⟩

/-- What the launch leaves in its output array, as a function of the arrays it finds. -/
def G (c : Dev nD) : FArr Ideal Cert.ReferenceIdeal.S50000x128 :=
  relu (dense128 (V c main_v20) (V c main_v31) (V c main_v8) (V c main_arg6) (V c main_arg7) (V c main_v32))

/-! ## The blocks the body loads, read where they sit in their arrays -/

theorem read0 (c : Dev nD) (t : Fin cfg1.N) (p : Fin 5000) (k : Fin 128) :
    iblk1 V c 0 t (ix2 p k) = V c main_v20 (ix2 (row t p) k) := by
  show V c main_v20 (((cfg1.win 0).blk t).view.emb (ix2 p k)) = _
  refine congrArg (V c main_v20) (funext fun a => Fin.ext ?_)
  obtain ⟨e0, e1, -⟩ := index_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem read1 (c : Dev nD) (t : Fin cfg1.N) (p : Fin 5000) (k : Fin 128) :
    iblk1 V c 1 t (ix2 p k) = V c main_v31 (ix2 (row t p) k) := by
  show V c main_v31 (((cfg1.win 1).blk t).view.emb (ix2 p k)) = _
  refine congrArg (V c main_v31) (funext fun a => Fin.ext ?_)
  obtain ⟨-, -, e0, e1, -⟩ := index_facts t
  match a with
  | ⟨0, _⟩ => show win1_1.index t (0 : Fin 2) * 5000 + 1 * p.val = t.val * 5000 + p.val; omega
  | ⟨1, _⟩ => show win1_1.index t (1 : Fin 2) * 128 + 1 * k.val = k.val; omega

theorem read2 (c : Dev nD) (t : Fin cfg1.N) (p : Fin 5000) :
    iblk1 V c 2 t (ix2 p (0 : Fin 1)) = V c main_v8 (ix2 (row t p) (0 : Fin 1)) := by
  show V c main_v8 (((cfg1.win 2).blk t).view.emb (ix2 p (0 : Fin 1))) = _
  refine congrArg (V c main_v8) (funext fun a => Fin.ext ?_)
  obtain ⟨-, -, -, -, e0, e1, -⟩ := index_facts t
  match a with
  | ⟨0, _⟩ => show win1_2.index t (0 : Fin 2) * 5000 + 1 * p.val = t.val * 5000 + p.val; omega
  | ⟨1, _⟩ => show win1_2.index t (1 : Fin 2) * 1 + 1 * 0 = 0; omega

theorem read3 (c : Dev nD) (t : Fin cfg1.N) (k : Fin 128) (q : Fin 128) :
    iblk1 V c 3 t (ix2 k q) = V c main_arg6 (ix2 k q) := by
  show V c main_arg6 (((cfg1.win 3).blk t).view.emb (ix2 k q)) = _
  refine congrArg (V c main_arg6) (funext fun a => Fin.ext ?_)
  obtain ⟨-, -, -, -, -, -, e0, e1, -⟩ := index_facts t
  match a with
  | ⟨0, _⟩ => show win1_3.index t (0 : Fin 2) * 128 + 1 * k.val = k.val; omega
  | ⟨1, _⟩ => show win1_3.index t (1 : Fin 2) * 128 + 1 * q.val = q.val; omega

theorem read4 (c : Dev nD) (t : Fin cfg1.N) (k : Fin 128) (q : Fin 128) :
    iblk1 V c 4 t (ix2 k q) = V c main_arg7 (ix2 k q) := by
  show V c main_arg7 (((cfg1.win 4).blk t).view.emb (ix2 k q)) = _
  refine congrArg (V c main_arg7) (funext fun a => Fin.ext ?_)
  obtain ⟨-, -, -, -, -, -, -, -, e0, e1, -⟩ := index_facts t
  match a with
  | ⟨0, _⟩ => show win1_4.index t (0 : Fin 2) * 128 + 1 * k.val = k.val; omega
  | ⟨1, _⟩ => show win1_4.index t (1 : Fin 2) * 128 + 1 * q.val = q.val; omega

theorem read5 (c : Dev nD) (t : Fin cfg1.N) (q : Fin 128) :
    iblk1 V c 5 t (ix2 (0 : Fin 1) q) = V c main_v32 (ix2 (0 : Fin 1) q) := by
  show V c main_v32 (((cfg1.win 5).blk t).view.emb (ix2 (0 : Fin 1) q)) = _
  refine congrArg (V c main_v32) (funext fun a => Fin.ext ?_)
  obtain ⟨-, -, -, -, -, -, -, -, -, -, e0, e1, -⟩ := index_facts t
  match a with
  | ⟨0, _⟩ => show win1_5.index t (0 : Fin 2) * 1 + 1 * 0 = 0; omega
  | ⟨1, _⟩ => show win1_5.index t (1 : Fin 2) * 128 + 1 * q.val = q.val; omega

/-! ## What one point writes back, and the whole array -/

/-- Point `t` writes back block `t` of `G`. -/
theorem flushed (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero zeros]
  simp only [View.ld_unit_zero (S := S5000x128) zeros, View.ld_unit_zero (S := S5000x1) zeros,
    View.ld_unit_zero (S := S128x128) zeros, View.ld_unit_zero (S := S1x128) zeros]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
      = G V c (((cfg1.win 6).blk t).view.emb (ix2 p q))
  have hemb : ((cfg1.win 6).blk t).view.emb (ix2 p q) = ix2 (row t p) q := funext fun a => Fin.ext (by
    obtain ⟨-, -, -, -, -, -, -, -, -, -, -, -, e0, e1⟩ := index_facts t
    match a with
    | ⟨0, _⟩ => show win1_6.index t (0 : Fin 2) * 5000 + 1 * p.val = t.val * 5000 + p.val; omega
    | ⟨1, _⟩ => show win1_6.index t (1 : Fin 2) * 128 + 1 * q.val = q.val; omega)
  rw [hemb]
  unfold G
  exact point1 (iblk1 V c 0 t) (iblk1 V c 1 t) (iblk1 V c 2 t) (iblk1 V c 3 t) (iblk1 V c 4 t) (iblk1 V c 5 t)
    (V c main_v20) (V c main_v31) (V c main_v8) (V c main_arg6) (V c main_arg7) (V c main_v32) p q (row t p)
    (fun k => read0 V c t p k) (fun k => read1 V c t p k) (read2 V c t p) (fun k => read3 V c t k q) (fun k => read4 V c t k q) (read5 V c t q)

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v33).slice (win1_6.rect t)).set ↔ _
  rw [View.set_slice_whole, Rect.mem_set_unit]
  exact Iff.rfl

/-- Every row of the output is in the block of the point `r / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 5000 < cfg1.N := by rw [points]; omega
  refine ⟨⟨(i 0).val / 5000, hlt⟩, flush1_6 _, ?_⟩
  rw [mem_blk]
  obtain ⟨-, -, -, -, -, -, -, -, -, -, -, -, e0, e1⟩ := index_facts ⟨(i 0).val / 5000, hlt⟩
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e1]; omega

/-- THE OUTPUT ARRAY after the launch is the layer of the arrays the launch found. -/
theorem final (c : Dev nD) : (dat1 (F := Ideal) V c).arrAt 6 cfg1.N = G V c :=
  (dat1 (F := Ideal) V c).arrAt_eq_of_cover 6 (G V c) (fun t _ => flushed V c t) (cover)

end Cert.KernelIdeal.Final1

end
-- ==== Proof.Final2.lean ====
/-
  The third launch of the layer kernel leaves, in its output array, the last layer of the arrays it finds.

  The launch walks ten grid points; point `t` stages rows `5000·t … 5000·t + 4999` of the node arrays (the node's own
  rows, their aggregate, the inverse-degree column) together with the whole weight matrices and the bias row, runs the
  body on them, and writes the body's result back to the same rows of the output array. Every row of the output lies
  in exactly the block of point `r / 5000`, so the output array ends as ONE function of the arrays the launch found:
  the layer of `Spec` applied to them. Nothing here depends on what those arrays are — they are whatever the program's
  earlier operations left (`V`).
-/
import proofs.«158000_j24232205484235_2_alg».proof.Proof.FramePatchedKernelIdeal
import proofs.«158000_j24232205484235_2_alg».proof.Proof.Point
import Idealize.ShloMosaic.Lib.Pipeline.Value

set_option maxRecDepth 16384

noncomputable section

namespace Cert.KernelIdeal.Final2

open Cert.KernelIdeal Cert.KernelIdeal.Gen Cert.KernelIdeal.GenP Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the node windows and the output sit at block `(t, 0)`, the weights and the
    bias at block `(0, 0)`. -/
theorem index_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem points : cfg2.N = 10 := N_2

/-- Row `p` of point `t`'s block is row `5000·t + p` of the array. -/
def row (t : Fin cfg2.N) (p : Fin 5000) : Fin 50000 :=
  ⟨t.val * 5000 + p.val, by have h : t.val < 10 := lt_of_lt_of_eq t.isLt points; have := p.isLt; omega⟩

/-- What the launch leaves in its output array, as a function of the arrays it finds. -/
def G (c : Dev nD) : FArr Ideal Cert.ReferenceIdeal.S50000x64 :=
  dense64 (V c main_v33) (V c main_v44) (V c main_v8) (V c main_arg9) (V c main_arg10) (V c main_v45)

/-! ## The blocks the body loads, read where they sit in their arrays -/

theorem read0 (c : Dev nD) (t : Fin cfg2.N) (p : Fin 5000) (k : Fin 128) :
    iblk2 V c 0 t (ix2 p k) = V c main_v33 (ix2 (row t p) k) := by
  show V c main_v33 (((cfg2.win 0).blk t).view.emb (ix2 p k)) = _
  refine congrArg (V c main_v33) (funext fun a => Fin.ext ?_)
  obtain ⟨e0, e1, -⟩ := index_facts t
  match a with
  | ⟨0, _⟩ => show win2_0.index t (0 : Fin 2) * 5000 + 1 * p.val = t.val * 5000 + p.val; omega
  | ⟨1, _⟩ => show win2_0.index t (1 : Fin 2) * 128 + 1 * k.val = k.val; omega

theorem read1 (c : Dev nD) (t : Fin cfg2.N) (p : Fin 5000) (k : Fin 128) :
    iblk2 V c 1 t (ix2 p k) = V c main_v44 (ix2 (row t p) k) := by
  show V c main_v44 (((cfg2.win 1).blk t).view.emb (ix2 p k)) = _
  refine congrArg (V c main_v44) (funext fun a => Fin.ext ?_)
  obtain ⟨-, -, e0, e1, -⟩ := index_facts t
  match a with
  | ⟨0, _⟩ => show win2_1.index t (0 : Fin 2) * 5000 + 1 * p.val = t.val * 5000 + p.val; omega
  | ⟨1, _⟩ => show win2_1.index t (1 : Fin 2) * 128 + 1 * k.val = k.val; omega

theorem read2 (c : Dev nD) (t : Fin cfg2.N) (p : Fin 5000) :
    iblk2 V c 2 t (ix2 p (0 : Fin 1)) = V c main_v8 (ix2 (row t p) (0 : Fin 1)) := by
  show V c main_v8 (((cfg2.win 2).blk t).view.emb (ix2 p (0 : Fin 1))) = _
  refine congrArg (V c main_v8) (funext fun a => Fin.ext ?_)
  obtain ⟨-, -, -, -, e0, e1, -⟩ := index_facts t
  match a with
  | ⟨0, _⟩ => show win2_2.index t (0 : Fin 2) * 5000 + 1 * p.val = t.val * 5000 + p.val; omega
  | ⟨1, _⟩ => show win2_2.index t (1 : Fin 2) * 1 + 1 * 0 = 0; omega

theorem read3 (c : Dev nD) (t : Fin cfg2.N) (k : Fin 128) (q : Fin 64) :
    iblk2 V c 3 t (ix2 k q) = V c main_arg9 (ix2 k q) := by
  show V c main_arg9 (((cfg2.win 3).blk t).view.emb (ix2 k q)) = _
  refine congrArg (V c main_arg9) (funext fun a => Fin.ext ?_)
  obtain ⟨-, -, -, -, -, -, e0, e1, -⟩ := index_facts t
  match a with
  | ⟨0, _⟩ => show win2_3.index t (0 : Fin 2) * 128 + 1 * k.val = k.val; omega
  | ⟨1, _⟩ => show win2_3.index t (1 : Fin 2) * 64 + 1 * q.val = q.val; omega

theorem read4 (c : Dev nD) (t : Fin cfg2.N) (k : Fin 128) (q : Fin 64) :
    iblk2 V c 4 t (ix2 k q) = V c main_arg10 (ix2 k q) := by
  show V c main_arg10 (((cfg2.win 4).blk t).view.emb (ix2 k q)) = _
  refine congrArg (V c main_arg10) (funext fun a => Fin.ext ?_)
  obtain ⟨-, -, -, -, -, -, -, -, e0, e1, -⟩ := index_facts t
  match a with
  | ⟨0, _⟩ => show win2_4.index t (0 : Fin 2) * 128 + 1 * k.val = k.val; omega
  | ⟨1, _⟩ => show win2_4.index t (1 : Fin 2) * 64 + 1 * q.val = q.val; omega

theorem read5 (c : Dev nD) (t : Fin cfg2.N) (q : Fin 64) :
    iblk2 V c 5 t (ix2 (0 : Fin 1) q) = V c main_v45 (ix2 (0 : Fin 1) q) := by
  show V c main_v45 (((cfg2.win 5).blk t).view.emb (ix2 (0 : Fin 1) q)) = _
  refine congrArg (V c main_v45) (funext fun a => Fin.ext ?_)
  obtain ⟨-, -, -, -, -, -, -, -, -, -, e0, e1, -⟩ := index_facts t
  match a with
  | ⟨0, _⟩ => show win2_5.index t (0 : Fin 2) * 1 + 1 * 0 = 0; omega
  | ⟨1, _⟩ => show win2_5.index t (1 : Fin 2) * 64 + 1 * q.val = q.val; omega

/-! ## What one point writes back, and the whole array -/

/-- Point `t` writes back block `t` of `G`. -/
theorem flushed (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero zeros]
  simp only [View.ld_unit_zero (S := S5000x128) zeros, View.ld_unit_zero (S := S5000x1) zeros,
    View.ld_unit_zero (S := S128x64) zeros, View.ld_unit_zero (S := S1x64) zeros]
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
      = G V c (((cfg2.win 6).blk t).view.emb (ix2 p q))
  have hemb : ((cfg2.win 6).blk t).view.emb (ix2 p q) = ix2 (row t p) q := funext fun a => Fin.ext (by
    obtain ⟨-, -, -, -, -, -, -, -, -, -, -, -, e0, e1⟩ := index_facts t
    match a with
    | ⟨0, _⟩ => show win2_6.index t (0 : Fin 2) * 5000 + 1 * p.val = t.val * 5000 + p.val; omega
    | ⟨1, _⟩ => show win2_6.index t (1 : Fin 2) * 64 + 1 * q.val = q.val; omega)
  rw [hemb]
  unfold G
  exact point2 (iblk2 V c 0 t) (iblk2 V c 1 t) (iblk2 V c 2 t) (iblk2 V c 3 t) (iblk2 V c 4 t) (iblk2 V c 5 t)
    (V c main_v33) (V c main_v44) (V c main_v8) (V c main_arg9) (V c main_arg10) (V c main_v45) p q (row t p)
    (fun k => read0 V c t p k) (fun k => read1 V c t p k) (read2 V c t p) (fun k => read3 V c t k q) (fun k => read4 V c t k q) (read5 V c t q)

/-- An index of the output array is in point `t`'s block iff each coordinate is in the block's range on its axis. -/
theorem mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v46).slice (win2_6.rect t)).set ↔ _
  rw [View.set_slice_whole, Rect.mem_set_unit]
  exact Iff.rfl

/-- Every row of the output is in the block of the point `r / 5000`. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hlt : (i 0).val / 5000 < cfg2.N := by rw [points]; omega
  refine ⟨⟨(i 0).val / 5000, hlt⟩, flush2_6 _, ?_⟩
  rw [mem_blk]
  obtain ⟨-, -, -, -, -, -, -, -, -, -, -, -, e0, e1⟩ := index_facts ⟨(i 0).val / 5000, hlt⟩
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e1]; omega

/-- THE OUTPUT ARRAY after the launch is the layer of the arrays the launch found. -/
theorem final (c : Dev nD) : (dat2 (F := Ideal) V c).arrAt 6 cfg2.N = G V c :=
  (dat2 (F := Ideal) V c).arrAt_eq_of_cover 6 (G V c) (fun t _ => flushed V c t) (cover)

end Cert.KernelIdeal.Final2

end
-- ==== Proof.Stretch.lean ====
/-
  The three stretches of host operations of the kernel's program, each read as a function of the buffer contents `W` it
  starts from. A stretch writes the aggregate of the current hidden rows over the edges (the same gather and
  scatter-add as the reference's: the term `aggregate` of `Spec`, never opened), a one-row copy of the next bias, and — the
  first stretch only — the inverse-degree column; it leaves the arguments and the earlier results alone. The second and
  third stretch gather from a bf16 array and widen the gathered rows to f32, which on the extended reals is no change.
-/
import proofs.«158000_j24232205484235_2_alg».proof.Proof.LaunchPatchedKernelIdeal
import proofs.«158000_j24232205484235_2_alg».proof.Proof.Spec
import Idealize.ShloMosaic.Lib.StableHlo.Run

set_option maxRecDepth 16384

noncomputable section

namespace Cert.KernelIdeal.Stretch

open Cert.KernelIdeal Cert.KernelIdeal.Gen Cert.KernelIdeal.GenP Cert.Sage
open Idealize.ShloMosaic Idealize.ShloMosaic.TcCoe Idealize.ShloMosaic.StableHlo Idealize.SL.Sem

variable (W : Valuation τ sig (Elt Ideal))

/-! ## What the stretches write -/

set_option maxHeartbeats 2000000 in
/-- The first stretch leaves the aggregate of the input rows. -/
theorem agg0 : after (hostOps0 (F := Ideal)) W (Proc.devRef .tc main_v18)
    = aggregate (W (Proc.devRef .tc main_arg0)) (W (Proc.devRef .tc main_arg1)) (W (Proc.devRef .tc main_arg2)) := by
  after_results_simp <;> rfl

/-- … the inverse degrees, reshaped to one column, … -/
theorem inv0 : after (hostOps0 (F := Ideal)) W (Proc.devRef .tc main_v8)
    = shapeCast S50000x1 (invDeg (W (Proc.devRef .tc main_arg2))) shapeCasts_S50000_S50000x1 := by
  after_results
  rfl

/-- … and the first bias, reshaped to one row. -/
theorem bias0 : after (hostOps0 (F := Ideal)) W (Proc.devRef .tc main_v19)
    = shapeCast S1x128 (W (Proc.devRef .tc main_arg5)) shapeCasts_S128_S1x128 := by
  after_results
  rfl

/-- The second stretch leaves the aggregate of the first launch's output rows … -/
theorem agg1 : after (hostOps1 (F := Ideal)) W (Proc.devRef .tc main_v31)
    = aggregate (W (Proc.devRef .tc main_v20)) (W (Proc.devRef .tc main_arg1)) (W (Proc.devRef .tc main_arg2)) := by
  after_results
  rfl

/-- … and the second bias as one row. -/
theorem bias1 : after (hostOps1 (F := Ideal)) W (Proc.devRef .tc main_v32)
    = shapeCast S1x128 (W (Proc.devRef .tc main_arg8)) shapeCasts_S128_S1x128 := by
  after_results
  rfl

/-- The third stretch leaves the aggregate of the second launch's output rows … -/
theorem agg2 : after (hostOps2 (F := Ideal)) W (Proc.devRef .tc main_v44)
    = aggregate (W (Proc.devRef .tc main_v33)) (W (Proc.devRef .tc main_arg1)) (W (Proc.devRef .tc main_arg2)) := by
  after_results
  rfl

/-- … and the third bias as one row. -/
theorem bias2 : after (hostOps2 (F := Ideal)) W (Proc.devRef .tc main_v45)
    = shapeCast S1x64 (W (Proc.devRef .tc main_arg11)) shapeCasts_S64_S1x64 := by
  after_results
  rfl

/-! ## What the stretches leave alone -/

/-- A buffer that none of a stretch's operations writes keeps its contents. -/
local macro "keeps" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem keep0_arg0 : after (hostOps0 (F := Ideal)) W (Proc.devRef .tc main_arg0) = W (Proc.devRef .tc main_arg0) := by keeps
theorem keep0_arg1 : after (hostOps0 (F := Ideal)) W (Proc.devRef .tc main_arg1) = W (Proc.devRef .tc main_arg1) := by keeps
theorem keep0_arg2 : after (hostOps0 (F := Ideal)) W (Proc.devRef .tc main_arg2) = W (Proc.devRef .tc main_arg2) := by keeps
theorem keep0_arg3 : after (hostOps0 (F := Ideal)) W (Proc.devRef .tc main_arg3) = W (Proc.devRef .tc main_arg3) := by keeps
theorem keep0_arg4 : after (hostOps0 (F := Ideal)) W (Proc.devRef .tc main_arg4) = W (Proc.devRef .tc main_arg4) := by keeps
theorem keep0_arg6 : after (hostOps0 (F := Ideal)) W (Proc.devRef .tc main_arg6) = W (Proc.devRef .tc main_arg6) := by keeps
theorem keep0_arg7 : after (hostOps0 (F := Ideal)) W (Proc.devRef .tc main_arg7) = W (Proc.devRef .tc main_arg7) := by keeps
theorem keep0_arg8 : after (hostOps0 (F := Ideal)) W (Proc.devRef .tc main_arg8) = W (Proc.devRef .tc main_arg8) := by keeps
theorem keep0_arg9 : after (hostOps0 (F := Ideal)) W (Proc.devRef .tc main_arg9) = W (Proc.devRef .tc main_arg9) := by keeps
theorem keep0_arg10 : after (hostOps0 (F := Ideal)) W (Proc.devRef .tc main_arg10) = W (Proc.devRef .tc main_arg10) := by keeps
theorem keep0_arg11 : after (hostOps0 (F := Ideal)) W (Proc.devRef .tc main_arg11) = W (Proc.devRef .tc main_arg11) := by keeps
theorem keep1_v20 : after (hostOps1 (F := Ideal)) W (Proc.devRef .tc main_v20) = W (Proc.devRef .tc main_v20) := by keeps
theorem keep1_v8 : after (hostOps1 (F := Ideal)) W (Proc.devRef .tc main_v8) = W (Proc.devRef .tc main_v8) := by keeps
theorem keep1_arg1 : after (hostOps1 (F := Ideal)) W (Proc.devRef .tc main_arg1) = W (Proc.devRef .tc main_arg1) := by keeps
theorem keep1_arg2 : after (hostOps1 (F := Ideal)) W (Proc.devRef .tc main_arg2) = W (Proc.devRef .tc main_arg2) := by keeps
theorem keep1_arg6 : after (hostOps1 (F := Ideal)) W (Proc.devRef .tc main_arg6) = W (Proc.devRef .tc main_arg6) := by keeps
theorem keep1_arg7 : after (hostOps1 (F := Ideal)) W (Proc.devRef .tc main_arg7) = W (Proc.devRef .tc main_arg7) := by keeps
theorem keep1_arg9 : after (hostOps1 (F := Ideal)) W (Proc.devRef .tc main_arg9) = W (Proc.devRef .tc main_arg9) := by keeps
theorem keep1_arg10 : after (hostOps1 (F := Ideal)) W (Proc.devRef .tc main_arg10) = W (Proc.devRef .tc main_arg10) := by keeps
theorem keep1_arg11 : after (hostOps1 (F := Ideal)) W (Proc.devRef .tc main_arg11) = W (Proc.devRef .tc main_arg11) := by keeps
theorem keep2_v33 : after (hostOps2 (F := Ideal)) W (Proc.devRef .tc main_v33) = W (Proc.devRef .tc main_v33) := by keeps
theorem keep2_v8 : after (hostOps2 (F := Ideal)) W (Proc.devRef .tc main_v8) = W (Proc.devRef .tc main_v8) := by keeps
theorem keep2_arg9 : after (hostOps2 (F := Ideal)) W (Proc.devRef .tc main_arg9) = W (Proc.devRef .tc main_arg9) := by keeps
theorem keep2_arg10 : after (hostOps2 (F := Ideal)) W (Proc.devRef .tc main_arg10) = W (Proc.devRef .tc main_arg10) := by keeps

end Cert.KernelIdeal.Stretch

end
-- ==== Proof.Reshape.lean ====
/-
  The kernel's program makes the inverse-degree column and the bias rows by a reshape ([50000] → [50000, 1],
  [128] → [1, 128], [64] → [1, 64]); the reference makes the same matrices by repeating along a new axis of extent one.
  A reshape keeps the row-major position, and with an axis of extent one both read the vector at the other coordinate.
-/
import proofs.«158000_j24232205484235_2_alg».proof.Proof.Spec
import Idealize.ShloMosaic.Lib.Pipeline.Value
import Idealize.ShloMosaic.Lib.ValueIdx

noncomputable section

namespace Cert.Sage

open Cert.ReferenceIdeal Cert.ReferenceIdeal.Gen Idealize.ShloMosaic Idealize.ShloMosaic.ValueIdx

/-- A vector over the nodes reshaped to one column is the column of `Spec`. -/
theorem reshape_col (v : FArr Ideal S50000) (h : S50000.ShapeCasts S50000x1) : shapeCast S50000x1 v h = col v := by
  funext j
  obtain ⟨r, z, rfl⟩ : ∃ (r : Fin 50000) (z : Fin 1), j = ix2 r z := ⟨j 0, j 1, eq_ix2 j⟩
  unfold col
  rw [shapeCast_apply v h (ix2 r z) (ix1 r) (by
    rw [Shape.rowMajor_val_one, Shape.rowMajor_val_two]
    show r.val = r.val * 1 + z.val
    have := z.isLt; omega)]
  exact (broadcastInDim_apply _ bcast_S50000_S50000x1_0 v (ix2 r z) (ix1 r) (fun a => match a with
    | ⟨0, _⟩ => by show r.val = if (50000 : Nat) = 1 then 0 else r.val; rw [if_neg (by decide)])).symm

/-- A bias vector of 128 entries reshaped to one row is the row of `Spec`. -/
theorem reshape_row128 (b : FArr Ideal S128) (h : S128.ShapeCasts S1x128) : shapeCast S1x128 b h = row128 b := by
  funext j
  obtain ⟨z, q, rfl⟩ : ∃ (z : Fin 1) (q : Fin 128), j = ix2 z q := ⟨j 0, j 1, eq_ix2 j⟩
  unfold row128
  rw [shapeCast_apply b h (ix2 z q) (ix1 q) (by
    rw [Shape.rowMajor_val_one, Shape.rowMajor_val_two]
    show q.val = z.val * 128 + q.val
    have := z.isLt; omega)]
  exact (broadcastInDim_apply _ bcast_S128_S1x128_1 b (ix2 z q) (ix1 q) (fun a => match a with
    | ⟨0, _⟩ => by show q.val = if (128 : Nat) = 1 then 0 else q.val; rw [if_neg (by decide)])).symm

/-- A bias vector of 64 entries reshaped to one row is the row of `Spec`. -/
theorem reshape_row64 (b : FArr Ideal S64) (h : S64.ShapeCasts S1x64) : shapeCast S1x64 b h = row64 b := by
  funext j
  obtain ⟨z, q, rfl⟩ : ∃ (z : Fin 1) (q : Fin 64), j = ix2 z q := ⟨j 0, j 1, eq_ix2 j⟩
  unfold row64
  rw [shapeCast_apply b h (ix2 z q) (ix1 q) (by
    rw [Shape.rowMajor_val_one, Shape.rowMajor_val_two]
    show q.val = z.val * 64 + q.val
    have := z.isLt; omega)]
  exact (broadcastInDim_apply _ bcast_S64_S1x64_1 b (ix2 z q) (ix1 q) (fun a => match a with
    | ⟨0, _⟩ => by show q.val = if (64 : Nat) = 1 then 0 else q.val; rw [if_neg (by decide)])).symm

end Cert.Sage

end
-- ==== Proof.Fold.lean ====
/-
  The kernel's program, boundary by boundary. The contents of the buffers when a launch starts are what the host
  operations before it leave of the contents when the previous launch ended, and a launch changes only its output
  array. Reading that fold at the buffers each launch uses:
    before the first launch  — the input rows, their aggregate, the inverse-degree column, the first weights and bias;
    after it                 — its output array is the first hidden layer (`Final0`);
    before the second launch — that hidden layer, ITS aggregate, the same column, the second weights and bias;
    after it                 — the second hidden layer (`Final1`);  and so on to the last layer (`Final2`),
  so the result buffer ends at `net` of the twelve arguments. The aggregates and the inverse degree are the terms of `Spec`
  throughout; only the names of the buffers change from one boundary to the next.
-/
import proofs.«158000_j24232205484235_2_alg».proof.Proof.FramePatchedKernelIdeal
import proofs.«158000_j24232205484235_2_alg».proof.Proof.Final0
import proofs.«158000_j24232205484235_2_alg».proof.Proof.Final1
import proofs.«158000_j24232205484235_2_alg».proof.Proof.Final2
import proofs.«158000_j24232205484235_2_alg».proof.Proof.Stretch
import proofs.«158000_j24232205484235_2_alg».proof.Proof.Reshape

set_option maxRecDepth 16384

noncomputable section

namespace Cert.KernelIdeal.Fold

open Cert.KernelIdeal Cert.KernelIdeal.Gen Cert.KernelIdeal.GenP Cert.Sage
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg) (c : Dev nD)

/-! ## Before and after the first launch -/

theorem v1_arg0 : V1 m ρ c main_arg0 = (m ((c : Thread nD τ).loc main_arg0)) := Stretch.keep0_arg0 (W0 m ρ c)
theorem v1_arg3 : V1 m ρ c main_arg3 = (m ((c : Thread nD τ).loc main_arg3)) := Stretch.keep0_arg3 (W0 m ρ c)
theorem v1_arg4 : V1 m ρ c main_arg4 = (m ((c : Thread nD τ).loc main_arg4)) := Stretch.keep0_arg4 (W0 m ρ c)
theorem v1_v18 : V1 m ρ c main_v18 = aggregate (m ((c : Thread nD τ).loc main_arg0)) (m ((c : Thread nD τ).loc main_arg1)) (m ((c : Thread nD τ).loc main_arg2)) := Stretch.agg0 (W0 m ρ c)
theorem v1_v8 : V1 m ρ c main_v8 = col (invDeg (m ((c : Thread nD τ).loc main_arg2))) := (Stretch.inv0 (W0 m ρ c)).trans (reshape_col _ _)
theorem v1_v19 : V1 m ρ c main_v19 = row128 (m ((c : Thread nD τ).loc main_arg5)) := (Stretch.bias0 (W0 m ρ c)).trans (reshape_row128 _ _)

/-- The first launch's output array is the first hidden layer of the arguments. -/
theorem h1 : W2 m ρ c (Proc.devRef .tc main_v20) = (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 6).trans ((Final0.final (V1 m ρ) c).trans ?_)
  unfold Final0.G Cert.Sage.hidden
  rw [v1_arg0, v1_v18, v1_v8, v1_arg3, v1_arg4, v1_v19]

/-- The first launch leaves the arguments it does not stage as they were … -/
theorem w2_arg1 : W2 m ρ c (Proc.devRef .tc main_arg1) = (m ((c : Thread nD τ).loc main_arg1)) :=
  (W2_of_ne m ρ c main_arg1 (by decide)).trans (Stretch.keep0_arg1 (W0 m ρ c))
theorem w2_arg2 : W2 m ρ c (Proc.devRef .tc main_arg2) = (m ((c : Thread nD τ).loc main_arg2)) :=
  (W2_of_ne m ρ c main_arg2 (by decide)).trans (Stretch.keep0_arg2 (W0 m ρ c))
theorem w2_arg6 : W2 m ρ c (Proc.devRef .tc main_arg6) = (m ((c : Thread nD τ).loc main_arg6)) :=
  (W2_of_ne m ρ c main_arg6 (by decide)).trans (Stretch.keep0_arg6 (W0 m ρ c))
theorem w2_arg7 : W2 m ρ c (Proc.devRef .tc main_arg7) = (m ((c : Thread nD τ).loc main_arg7)) :=
  (W2_of_ne m ρ c main_arg7 (by decide)).trans (Stretch.keep0_arg7 (W0 m ρ c))
theorem w2_arg8 : W2 m ρ c (Proc.devRef .tc main_arg8) = (m ((c : Thread nD τ).loc main_arg8)) :=
  (W2_of_ne m ρ c main_arg8 (by decide)).trans (Stretch.keep0_arg8 (W0 m ρ c))
theorem w2_arg9 : W2 m ρ c (Proc.devRef .tc main_arg9) = (m ((c : Thread nD τ).loc main_arg9)) :=
  (W2_of_ne m ρ c main_arg9 (by decide)).trans (Stretch.keep0_arg9 (W0 m ρ c))
theorem w2_arg10 : W2 m ρ c (Proc.devRef .tc main_arg10) = (m ((c : Thread nD τ).loc main_arg10)) :=
  (W2_of_ne m ρ c main_arg10 (by decide)).trans (Stretch.keep0_arg10 (W0 m ρ c))
theorem w2_arg11 : W2 m ρ c (Proc.devRef .tc main_arg11) = (m ((c : Thread nD τ).loc main_arg11)) :=
  (W2_of_ne m ρ c main_arg11 (by decide)).trans (Stretch.keep0_arg11 (W0 m ρ c))
/-- … and the inverse-degree column, which it only reads. -/
theorem w2_v8 : W2 m ρ c (Proc.devRef .tc main_v8) = col (invDeg (m ((c : Thread nD τ).loc main_arg2))) :=
  (W2_arr m ρ c 2).trans (((dat0 (V1 m ρ) c).arrAt_in 2 rfl _).trans ((A_eq0 (V1 m ρ) c 2).trans (v1_v8 m ρ c)))

/-! ## Before and after the second launch -/

theorem v3_v20 : V3 m ρ c main_v20 = (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := (Stretch.keep1_v20 (W2 m ρ c)).trans (h1 m ρ c)
theorem v3_v31 : V3 m ρ c main_v31 = aggregate (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  refine (Stretch.agg1 (W2 m ρ c)).trans ?_
  rw [h1, w2_arg1, w2_arg2]
theorem v3_v8 : V3 m ρ c main_v8 = col (invDeg (m ((c : Thread nD τ).loc main_arg2))) := (Stretch.keep1_v8 (W2 m ρ c)).trans (w2_v8 m ρ c)
theorem v3_arg6 : V3 m ρ c main_arg6 = (m ((c : Thread nD τ).loc main_arg6)) := (Stretch.keep1_arg6 (W2 m ρ c)).trans (w2_arg6 m ρ c)
theorem v3_arg7 : V3 m ρ c main_arg7 = (m ((c : Thread nD τ).loc main_arg7)) := (Stretch.keep1_arg7 (W2 m ρ c)).trans (w2_arg7 m ρ c)
theorem v3_v32 : V3 m ρ c main_v32 = row128 (m ((c : Thread nD τ).loc main_arg8)) := by
  refine (Stretch.bias1 (W2 m ρ c)).trans ?_
  rw [w2_arg8]
  exact reshape_row128 _ _

/-- The second launch's output array is the second hidden layer. -/
theorem h2 : W4 m ρ c (Proc.devRef .tc main_v33) = (Cert.Sage.hidden (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) := by
  refine (W4_arr m ρ c 6).trans ((Final1.final (V3 m ρ) c).trans ?_)
  unfold Final1.G
  rw [v3_v20, v3_v31, v3_v8, v3_arg6, v3_arg7, v3_v32]
  rfl

theorem w4_arg1 : W4 m ρ c (Proc.devRef .tc main_arg1) = (m ((c : Thread nD τ).loc main_arg1)) :=
  (W4_of_ne m ρ c main_arg1 (by decide)).trans ((Stretch.keep1_arg1 (W2 m ρ c)).trans (w2_arg1 m ρ c))
theorem w4_arg2 : W4 m ρ c (Proc.devRef .tc main_arg2) = (m ((c : Thread nD τ).loc main_arg2)) :=
  (W4_of_ne m ρ c main_arg2 (by decide)).trans ((Stretch.keep1_arg2 (W2 m ρ c)).trans (w2_arg2 m ρ c))
theorem w4_arg9 : W4 m ρ c (Proc.devRef .tc main_arg9) = (m ((c : Thread nD τ).loc main_arg9)) :=
  (W4_of_ne m ρ c main_arg9 (by decide)).trans ((Stretch.keep1_arg9 (W2 m ρ c)).trans (w2_arg9 m ρ c))
theorem w4_arg10 : W4 m ρ c (Proc.devRef .tc main_arg10) = (m ((c : Thread nD τ).loc main_arg10)) :=
  (W4_of_ne m ρ c main_arg10 (by decide)).trans ((Stretch.keep1_arg10 (W2 m ρ c)).trans (w2_arg10 m ρ c))
theorem w4_arg11 : W4 m ρ c (Proc.devRef .tc main_arg11) = (m ((c : Thread nD τ).loc main_arg11)) :=
  (W4_of_ne m ρ c main_arg11 (by decide)).trans ((Stretch.keep1_arg11 (W2 m ρ c)).trans (w2_arg11 m ρ c))
theorem w4_v8 : W4 m ρ c (Proc.devRef .tc main_v8) = col (invDeg (m ((c : Thread nD τ).loc main_arg2))) :=
  (W4_arr m ρ c 2).trans (((dat1 (V3 m ρ) c).arrAt_in 2 rfl _).trans ((A_eq1 (V3 m ρ) c 2).trans (v3_v8 m ρ c)))

/-! ## Before and after the third launch -/

theorem v5_v33 : V5 m ρ c main_v33 = (Cert.Sage.hidden (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) := (Stretch.keep2_v33 (W4 m ρ c)).trans (h2 m ρ c)
theorem v5_v44 : V5 m ρ c main_v44 = aggregate (Cert.Sage.hidden (Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) (m ((c : Thread nD τ).loc main_arg1)) (m ((c : Thread nD τ).loc main_arg2)) := by
  refine (Stretch.agg2 (W4 m ρ c)).trans ?_
  rw [h2, w4_arg1, w4_arg2]
theorem v5_v8 : V5 m ρ c main_v8 = col (invDeg (m ((c : Thread nD τ).loc main_arg2))) := (Stretch.keep2_v8 (W4 m ρ c)).trans (w4_v8 m ρ c)
theorem v5_arg9 : V5 m ρ c main_arg9 = (m ((c : Thread nD τ).loc main_arg9)) := (Stretch.keep2_arg9 (W4 m ρ c)).trans (w4_arg9 m ρ c)
theorem v5_arg10 : V5 m ρ c main_arg10 = (m ((c : Thread nD τ).loc main_arg10)) := (Stretch.keep2_arg10 (W4 m ρ c)).trans (w4_arg10 m ρ c)
theorem v5_v45 : V5 m ρ c main_v45 = row64 (m ((c : Thread nD τ).loc main_arg11)) := by
  refine (Stretch.bias2 (W4 m ρ c)).trans ?_
  rw [w4_arg11]
  exact reshape_row64 _ _

/-- THE RESULT BUFFER at the end of the fold is the network of the twelve arguments. -/
theorem result : W6 m ρ c (Proc.devRef .tc main_v46)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 6).trans ((Final2.final (V5 m ρ) c).trans ?_)
  unfold Final2.G
  rw [v5_v33, v5_v44, v5_v8, v5_arg9, v5_arg10, v5_v45]
  rfl

end Cert.KernelIdeal.Fold

end
-- ==== Proof.lean ====
/-
  The certificate of the three-layer graph network: the kernel's program against its reference.

  Both programs compute, from the node features, the edge lists and three layers of weights,
      h ↦ h · Wself + (agg h ⊙ inv) · Wneigh + b        (and max(·, 0) after the first two layers),
  where agg sums the rows of the source nodes of the edges ending at each node and inv is one over the clamped in-degree.
  The reference does the dense part with whole-array products on the host; the kernel's program does it in a launch of
  ten grid points over blocks of 5000 rows, rounding to bf16 on the way into its products and (for the hidden layers)
  on the way out — on the extended reals no change at all. The sums over edges are the same host operations in both.

  * The three frames: the two launch programs' are the generated frame proofs; the reference has no launch, and its frame
    is its run with the result dropped.
  * `preserves`: the idealizing pass rewrote nothing, so there is nothing to state.
  * `algebraic`: the kernel's run ends with its result buffer at the last value of the fold of buffer contents
    (`KernelRun`), which is `net` of the arguments (`Fold`: each launch's output array is one layer of the arrays it finds,
    `Final0` … `Final2`, entry by entry by `Point`); the reference's run ends at its composed term, which is `net` of ITS
    arguments (`RefNet`); and the two argument lists agree. No law of the extended reals beyond re-indexing a finite sum
    is used, so the finiteness of the inputs is never needed.
-/
import proofs.«158000_j24232205484235_2_alg».proof.Defs
import proofs.«158000_j24232205484235_2_alg».proof.Proof.Gen.Kernel
import proofs.«158000_j24232205484235_2_alg».proof.Proof.Gen.KernelIdeal
import proofs.«158000_j24232205484235_2_alg».proof.Proof.Gen.ReferenceIdeal
import proofs.«158000_j24232205484235_2_alg».proof.Proof.Gen.Pre_finite_inputs
import proofs.«158000_j24232205484235_2_alg».proof.Proof.FramePatchedKernel
import proofs.«158000_j24232205484235_2_alg».proof.Proof.FramePatchedKernelIdeal
import proofs.«158000_j24232205484235_2_alg».proof.Proof.Gen.ReferenceIdeal.Run
import proofs.«158000_j24232205484235_2_alg».proof.Proof.RefNet
import proofs.«158000_j24232205484235_2_alg».proof.Proof.KernelRun
import proofs.«158000_j24232205484235_2_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernel_ideal : Cert.frame_KernelIdeal := fun m ρ _ => Cert.KernelIdeal.GenP.frame m ρ

/-- The reference's frame: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `net` of the (agreeing) arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.Sage.ref_is_net, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
